-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S600000 32) (main_arg2 : IVec S600000 32) (main_arg3 : FVec F S600000 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 29
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000x1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S1x128, .f32⟩
  | .hbm, ⟨28, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000x1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S50000x128, .f32⟩
  | .hbm, ⟨25, _⟩ => ⟨S128x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S_, .f32⟩
  | .hbm, ⟨32, _⟩ => ⟨S50000x128, .f32⟩
  | .hbm, ⟨33, _⟩ => ⟨S50000x128, .i1⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S_, .f32⟩
  | .hbm, ⟨46, _⟩ => ⟨S50000x128, .f32⟩
  | .hbm, ⟨47, _⟩ => ⟨S50000x128, .i1⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v26 : Ref sig .tc := ⟨.hbm, 51, rfl⟩
abbrev main_v27 : Ref sig .tc := ⟨.hbm, 52, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics of the bi-interaction aggregator, with no program in sight.

  For node features `e` and an aggregated neighbourhood `s` (both 50000 × 128), two weight matrices `W`
  (128 × 128, applied transposed) and two biases `b` (128), the result at node `n` and feature `j` is

      leaky (∑ k, (e n k + s n k) · Wsum j k + bsum j) + leaky (∑ k, (e n k · s n k) · Wprod j k + bprod j)

  over the extended reals, where `leaky x` is `x` for positive `x` and `x · c` otherwise, `c` the slope.
  One program tests `x > 0` and multiplies on the right, the other tests `x ≥ 0` and multiplies on the left:
  at `x = 0` both give `0`, and the product commutes, so they are one function (`leaky_ge`). Neither fact needs
  a finite argument.

  A matrix product whose dimension numbers contract the left operand's columns with the right operand's rows
  reads, at row `p` and column `q`, as the sum over `c : Fin 128` of `l p c · r c q` (`sum_contr`).
-/
import Idealize.ShloMosaic.PureOps.Ideal
import Idealize.ShloMosaic.PureOps.Ideal.Laws
import Idealize.ShloMosaic.Lib.ValueIdx

noncomputable section

open scoped BigOperators

namespace Cert.BiInteraction

open Idealize.ShloMosaic Idealize.ShloMosaic.ValueIdx

/-- The slope of the leaky rectifier: the binary32 value nearest 0.01, the same word in both programs. -/
abbrev slope : EReal := Ideal.ofBits .f32 0x3C23D70A#32

/-- The leaky rectifier with slope `c`: the identity on positive numbers, multiplication by `c` elsewhere. -/
def leaky (c x : EReal) : EReal := Scalar.select (Ideal.cmp .ogt x 0) x (x * c)

/-- Testing `x ≥ 0` instead of `x > 0`, and multiplying on the other side, is the same function: the two tests
    differ only at `0`, where `x` and `x · c` are both `0`. -/
theorem leaky_ge (c x : EReal) : Scalar.select (Ideal.cmp .oge x 0) x (c * x) = leaky c x := by
  unfold leaky Scalar.select Ideal.cmp
  rcases lt_trichotomy x 0 with h | h | h
  · have h1 : ¬ (0 ≤ x) := not_le.mpr h
    have h2 : ¬ (0 < x) := not_lt.mpr h.le
    simp [h1, h2, mul_comm]
  · subst h; simp
  · have h1 : 0 ≤ x := h.le
    simp [h, h1]

/-- One affine map of a row: the row of `x` against row `j` of `W` (the weight applied transposed), plus the bias. -/
def lin (x : (⟨2, ![50000, 128]⟩ : Shape).Idx → EReal) (W : (⟨2, ![128, 128]⟩ : Shape).Idx → EReal)
    (b : (⟨1, ![128]⟩ : Shape).Idx → EReal) (n : Fin 50000) (j : Fin 128) : EReal :=
  (∑ k : Fin 128, x (ix2 n k) * W (ix2 j k)) + b (ix1 j)

/-- The aggregator's result as one function of the node features `e`, the aggregated neighbourhood `s`, the two
    weights and the two biases, index by index. -/
def G (e s : (⟨2, ![50000, 128]⟩ : Shape).Idx → EReal) (Wsum : (⟨2, ![128, 128]⟩ : Shape).Idx → EReal)
    (bsum : (⟨1, ![128]⟩ : Shape).Idx → EReal) (Wprod : (⟨2, ![128, 128]⟩ : Shape).Idx → EReal)
    (bprod : (⟨1, ![128]⟩ : Shape).Idx → EReal) : (⟨2, ![50000, 128]⟩ : Shape).Idx → EReal := fun i =>
  leaky slope (lin (fun q => e q + s q) Wsum bsum (i 0) (i 1))
    + leaky slope (lin (fun q => e q * s q) Wprod bprod (i 0) (i 1))

theorem G_apply (e s : (⟨2, ![50000, 128]⟩ : Shape).Idx → EReal) (Wsum : (⟨2, ![128, 128]⟩ : Shape).Idx → EReal)
    (bsum : (⟨1, ![128]⟩ : Shape).Idx → EReal) (Wprod : (⟨2, ![128, 128]⟩ : Shape).Idx → EReal)
    (bprod : (⟨1, ![128]⟩ : Shape).Idx → EReal) (n : Fin 50000) (j : Fin 128) :
    G e s Wsum bsum Wprod bprod (ix2 n j)
      = leaky slope (lin (fun q => e q + s q) Wsum bsum n j) + leaky slope (lin (fun q => e q * s q) Wprod bprod n j) := rfl

/-- A product of an `M × 128` matrix with a `128 × 128` one, contracting the left columns with the right rows: at row
    `p` and column `q` the contraction's sum, indexed by the contraction shape's one coordinate, is the sum over
    `c : Fin 128` of `l p c · r c q`. The four coordinate facts are what the dimension numbers say. -/
theorem sum_contr {M : Nat} (D : DotDims ⟨2, ![M, 128]⟩ ⟨2, ![128, 128]⟩ ⟨2, ![M, 128]⟩) (hr : D.contr.rank = 1)
    (hs : D.contr.size ⟨0, by omega⟩ = 128)
    (h00 : ∀ j k, (D.lhsIdx j k 0 : ℕ) = j 0) (h01 : ∀ j k, (D.lhsIdx j k 1 : ℕ) = k ⟨0, by omega⟩)
    (h10 : ∀ j k, (D.rhsIdx j k 0 : ℕ) = k ⟨0, by omega⟩) (h11 : ∀ j k, (D.rhsIdx j k 1 : ℕ) = j 1)
    (l : (⟨2, ![M, 128]⟩ : Shape).Idx → EReal) (r : (⟨2, ![128, 128]⟩ : Shape).Idx → EReal) (p : Fin M) (q : Fin 128) :
    (∑ k : D.contr.Idx, l (D.lhsIdx (ix2 p q) k) * r (D.rhsIdx (ix2 p q) k)) = ∑ c : Fin 128, l (ix2 p c) * r (ix2 c q) := by
  rw [← Equiv.sum_comp (contrEquiv1 D 128 hr hs).symm]
  refine Finset.sum_congr rfl fun c _ => ?_
  have el : D.lhsIdx (ix2 p q) ((contrEquiv1 D 128 hr hs).symm c) = ix2 p c := by
    funext a; apply Fin.ext
    match a with
    | ⟨0, _⟩ => exact h00 _ _
    | ⟨1, _⟩ => exact (h01 _ _).trans (contrEquiv1_symm_val D 128 hr hs c)
  have er : D.rhsIdx (ix2 p q) ((contrEquiv1 D 128 hr hs).symm c) = ix2 c q := by
    funext a; apply Fin.ext
    match a with
    | ⟨0, _⟩ => exact (h10 _ _).trans (contrEquiv1_symm_val D 128 hr hs c)
    | ⟨1, _⟩ => exact h11 _ _
  rw [el, er]

end Cert.BiInteraction

end
-- ==== Proof.KernelPay.lean ====
/-
  The kernel body's arithmetic at one element of its output block. The body adds and multiplies its two 5000 × 128
  input blocks, multiplies each by a 128 × 128 weight block (the change of format in front of each product is the
  identity on extended reals, and the product into a zero accumulator is the plain sum over the 128 contracted
  positions), adds a one-row bias copied down the rows, applies the leaky rectifier (`x > 0` selects `x`, otherwise
  `x · slope`) and adds the two results. At row `p` and column `q` of the block that is the sum of two `leaky` terms.
-/
import proofs.«101453_j9466107920588_1_alg».proof.Proof.Gen.KernelIdeal.Skeleton
import proofs.«101453_j9466107920588_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.BiInteraction

/-- The body's matrix product: a 5000 × 128 block against a 128 × 128 weight, contracting columns with rows. -/
abbrev DK : DotDims S5000x128 S128x128 S5000x128 := dot_S5000x128_S128x128_S5000x128_1_0_0_1_n_n

theorem dK_l0 (j : S5000x128.Idx) (k : DK.contr.Idx) : (DK.lhsIdx j k 0 : ℕ) = j 0 := by
  simp [DotDims.lhsIdx, DK, dot_S5000x128_S128x128_S5000x128_1_0_0_1_n_n]; rfl
theorem dK_l1 (j : S5000x128.Idx) (k : DK.contr.Idx) : (DK.lhsIdx j k 1 : ℕ) = k ⟨0, by decide⟩ := by
  simp [DotDims.lhsIdx, DK, dot_S5000x128_S128x128_S5000x128_1_0_0_1_n_n]; rfl
theorem dK_r0 (j : S5000x128.Idx) (k : DK.contr.Idx) : (DK.rhsIdx j k 0 : ℕ) = k ⟨0, by decide⟩ := by
  simp [DotDims.rhsIdx, DK, dot_S5000x128_S128x128_S5000x128_1_0_0_1_n_n]; rfl
theorem dK_r1 (j : S5000x128.Idx) (k : DK.contr.Idx) : (DK.rhsIdx j k 1 : ℕ) = j 1 := by
  simp [DotDims.rhsIdx, DK, dot_S5000x128_S128x128_S5000x128_1_0_0_1_n_n]; rfl

/-- The product into a zero accumulator, at row `p` and column `q`: the sum over the 128 contracted positions. -/
theorem matmul_at (l : FVec Ideal S5000x128 .bf16) (r : FVec Ideal S128x128 .bf16) (p : Fin 5000) (q : Fin 128) :
    matmul DK none l r (constant (F := Ideal) S5000x128 .f32 0x00000000#32) (ix2 p q) = ∑ c : Fin 128, l (ix2 p c) * r (ix2 c q) :=
  (Ideal.matmul_constant_zero_apply DK none l r (ix2 p q)).trans
    (sum_contr DK rfl rfl dK_l0 dK_l1 dK_r0 dK_r1 l r p q)

/-- The stored value at row `p`, column `q` of the block, from the six loaded blocks. -/
theorem pay_apply (x0 x1 : Vec Ideal S5000x128 .f32) (x2 x4 : Vec Ideal S128x128 .f32) (x3 x5 : Vec Ideal S1x128 .f32)
    (p : Fin 5000) (q : Fin 128) :
    k0_pay1 (F := Ideal) x0 x1 x2 x4 x3 x5 (ix2 p q)
      = leaky slope ((∑ c : Fin 128, (x0 (ix2 p c) + x1 (ix2 p c)) * x2 (ix2 c q)) + x3 (ix2 (0 : Fin 1) q))
        + leaky slope ((∑ c : Fin 128, (x0 (ix2 p c) * x1 (ix2 p c)) * x4 (ix2 c q)) + x5 (ix2 (0 : Fin 1) q)) := by
  unfold k0_pay1
  simp only [shapeCast_self]
  simp only [addf_apply, select_apply, cmpf_apply, mulf_apply, broadcast_apply, matmul_at, broadcastTo_1b_ab_apply,
    truncf_apply, Ideal.cmpf_def, Ideal.ofBits_def, Ideal.ofBits_zero_f32, leaky]

/-- The stored value is `G` at the global row. If the two 5000-row blocks are rows `n` of the node features `e` and
    of the neighbourhood sum `s`, the two weight blocks are the weights transposed and the two one-row blocks are the
    biases, then the element at row `p`, column `q` of the block is `G` at `(n, q)`. -/
theorem pay_eq_G (e s : (⟨2, ![50000, 128]⟩ : Shape).Idx → EReal) (Wsum Wprod : (⟨2, ![128, 128]⟩ : Shape).Idx → EReal)
    (bsum bprod : (⟨1, ![128]⟩ : Shape).Idx → EReal)
    (x0 x1 : Vec Ideal S5000x128 .f32) (x2 x4 : Vec Ideal S128x128 .f32) (x3 x5 : Vec Ideal S1x128 .f32)
    (p : Fin 5000) (q : Fin 128) (n : Fin 50000)
    (h0 : ∀ k : Fin 128, x0 (ix2 p k) = e (ix2 n k)) (h1 : ∀ k : Fin 128, x1 (ix2 p k) = s (ix2 n k))
    (h2 : ∀ k : Fin 128, x2 (ix2 k q) = Wsum (ix2 q k)) (h4 : ∀ k : Fin 128, x4 (ix2 k q) = Wprod (ix2 q k))
    (h3 : x3 (ix2 (0 : Fin 1) q) = bsum (ix1 q)) (h5 : x5 (ix2 (0 : Fin 1) q) = bprod (ix1 q)) :
    k0_pay1 (F := Ideal) x0 x1 x2 x4 x3 x5 (ix2 p q) = G e s Wsum bsum Wprod bprod (ix2 n q) := by
  rw [pay_apply, G_apply]
  simp only [h0, h1, h2, h4, h3, h5]
  rfl

end Cert.KernelIdeal.Hand

end
-- ==== Proof.KernelHost.lean ====
/-
  What the kernel's region finds in its operand arrays. Before the region the program computes, on the host, the sparse
  aggregation `s` (source rows gathered by the column indices, a negative index wrapped by the number of nodes, scaled
  by the edge values and summed into the destination rows), the two weights transposed, and the two biases reshaped
  to one row. The aggregation is named `neighbourhood` and carried as one value: nothing here opens it.
-/
import proofs.«101453_j9466107920588_1_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The sparse aggregation `s[n, :] = ∑ over edges (n ← col) of val · e[col, :]`, as the host operations spell it. -/
def neighbourhood (e : FVec F S50000x128 .f32) (row col : IVec S600000 32) (val : FVec F S600000 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 row)
    (mulf (broadcastInDim S600000x128 ![0, 1] bcast_S600000x1_S600000x128_0_1 (broadcastInDim S600000x1 ![0] bcast_S600000_S600000x1_0 val))
      (Host.gather gather_S50000x128_S600000x1_S600000x128_1_0_n_n_0_1_1128 e
        (broadcastInDim S600000x1 ![0] bcast_S600000_S600000x1_0
          (select (cmpi .slt col (broadcastInDim S600000 ![] bcast_S_S600000 (constantI S_ 32 0#32)))
            (addi col (broadcastInDim S600000 ![] bcast_S_S600000 (constantI S_ 32 50000#32))) col))))

/-- The second operand array holds the neighbourhood sum of the arguments. -/
theorem V_side (c : Dev nD) :
    (V m c main_v12 : S50000x128.Idx → Elt F .f32)
      = neighbourhood (m ((c : Thread nD τ).loc main_arg0)) (m ((c : Thread nD τ).loc main_arg1))
          (m ((c : Thread nD τ).loc main_arg2)) (m ((c : Thread nD τ).loc main_arg3)) := by
  dsimp only [Gen.V, Gen.hostOps0]; after_results; rfl

/-- The third holds the first weight transposed. -/
theorem V_wsum (c : Dev nD) :
    (V m c main_v13 : S128x128.Idx → Elt F .f32)
      = transpose S128x128 [1, 0] (m ((c : Thread nD τ).loc main_arg4)) transposes_S128x128_S128x128_1_0 := by
  dsimp only [Gen.V, Gen.hostOps0]; after_results

/-- The fifth holds the second weight transposed. -/
theorem V_wprod (c : Dev nD) :
    (V m c main_v14 : S128x128.Idx → Elt F .f32)
      = transpose S128x128 [1, 0] (m ((c : Thread nD τ).loc main_arg6)) transposes_S128x128_S128x128_1_0 := by
  dsimp only [Gen.V, Gen.hostOps0]; after_results

/-- The fourth holds the first bias as one row. -/
theorem V_bsum (c : Dev nD) :
    (V m c main_v15 : S1x128.Idx → Elt F .f32)
      = shapeCast S1x128 (m ((c : Thread nD τ).loc main_arg5)) shapeCasts_S128_S1x128 := by
  dsimp only [Gen.V, Gen.hostOps0]; after_results; rfl

/-- The sixth holds the second bias as one row. -/
theorem V_bprod (c : Dev nD) :
    (V m c main_v16 : S1x128.Idx → Elt F .f32)
      = shapeCast S1x128 (m ((c : Thread nD τ).loc main_arg7)) shapeCasts_S128_S1x128 := by
  dsimp only [Gen.V, Gen.hostOps0]; after_results; rfl

end Cert.KernelIdeal.Hand

end
-- ==== Proof.KernelValue.lean ====
/-
  From the blocks to the array. The grid has ten points; point `t` reads rows `5000 t … 5000 t + 4999` of the node
  features and of the neighbourhood sum, the whole of each transposed weight and of each one-row bias, and writes
  rows `5000 t … 5000 t + 4999` of the result. A block's element at `(p, q)` therefore sits at row
  `5000 t + p` of its array (block index × block size + the coordinate inside the block), so what point `t`
  writes back is block `t` of the aggregator's function `G` of the argument arrays; the ten blocks cover the 50000
  rows (row `r` lies in block `r / 5000`), so the result array ends holding `G`.
-/
import proofs.«101453_j9466107920588_1_alg».proof.Proof.Gen.KernelIdeal.Value
import proofs.«101453_j9466107920588_1_alg».proof.Proof.KernelPay
import proofs.«101453_j9466107920588_1_alg».proof.Proof.KernelHost
import proofs.«101453_j9466107920588_1_alg».proof.Proof.Spec
import Idealize.ShloMosaic.Lib.Pipeline.Value
import Idealize.ShloMosaic.Lib.ValueLayout

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.BiInteraction
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the ten points: the two row-blocked inputs and the output move with the
    point along the rows, the weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array row of row `p` of point `t`'s block. -/
def row (t : Fin cfg0.N) (p : Fin 5000) : Fin 50000 :=
  ⟨t.val * 5000 + p.val, by have h : t.val < 10 := lt_of_lt_of_eq t.isLt N_0; have := p.isLt; omega⟩

/-- Point `t`'s block of the node features is rows `5000 t + p` of the array the region finds. -/
theorem blk0_apply (c : Dev nD) (t : Fin cfg0.N) (p : Fin 5000) (k : Fin 128) :
    (iblk m c 0 t : Vec Ideal S5000x128 .f32) (ix2 p k) = (V m c main_arg0 : S50000x128.Idx → EReal) (ix2 (row t p) k) := by
  obtain ⟨e0, e1, -⟩ := idx_facts t
  unfold iblk
  rw [View.read_apply]
  show (V m c main_arg0 : S50000x128.Idx → EReal) _ = _
  refine congrArg (V m c main_arg0 : S50000x128.Idx → EReal) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Point `t`'s block of the neighbourhood sum is rows `5000 t + p` of its array. -/
theorem blk1_apply (c : Dev nD) (t : Fin cfg0.N) (p : Fin 5000) (k : Fin 128) :
    (iblk m c 1 t : Vec Ideal S5000x128 .f32) (ix2 p k) = (V m c main_v12 : S50000x128.Idx → EReal) (ix2 (row t p) k) := by
  obtain ⟨-, -, e0, e1, -⟩ := idx_facts t
  unfold iblk
  rw [View.read_apply]
  show (V m c main_v12 : S50000x128.Idx → EReal) _ = _
  refine congrArg (V m c main_v12 : S50000x128.Idx → EReal) ?_
  funext a; apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- Every point's block of the first transposed weight is the whole of it. -/
theorem blk2_apply (c : Dev nD) (t : Fin cfg0.N) (k q : Fin 128) :
    (iblk m c 2 t : Vec Ideal S128x128 .f32) (ix2 k q) = (V m c main_v13 : S128x128.Idx → EReal) (ix2 k q) := by
  obtain ⟨-, -, -, -, e0, e1, -⟩ := idx_facts t
  unfold iblk
  rw [View.read_apply]
  show (V m c main_v13 : S128x128.Idx → EReal) _ = _
  refine congrArg (V m c main_v13 : S128x128.Idx → EReal) ?_
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Every point's block of the first one-row bias is the whole of it. -/
theorem blk3_apply (c : Dev nD) (t : Fin cfg0.N) (q : Fin 128) :
    (iblk m c 3 t : Vec Ideal S1x128 .f32) (ix2 (0 : Fin 1) q) = (V m c main_v15 : S1x128.Idx → EReal) (ix2 (0 : Fin 1) q) := by
  obtain ⟨-, -, -, -, -, -, e0, e1, -⟩ := idx_facts t
  unfold iblk
  rw [View.read_apply]
  show (V m c main_v15 : S1x128.Idx → EReal) _ = _
  refine congrArg (V m c main_v15 : S1x128.Idx → EReal) ?_
  funext a; apply Fin.ext
  match a with
  | ⟨0, _⟩ => show win0_3.index t (0 : Fin 2) * 1 + 1 * 0 = 0; rw [e0]
  | ⟨1, _⟩ => show win0_3.index t (1 : Fin 2) * 128 + 1 * q.val = q.val; rw [e1]; omega

/-- Every point's block of the second transposed weight is the whole of it. -/
theorem blk4_apply (c : Dev nD) (t : Fin cfg0.N) (k q : Fin 128) :
    (iblk m c 4 t : Vec Ideal S128x128 .f32) (ix2 k q) = (V m c main_v14 : S128x128.Idx → EReal) (ix2 k q) := by
  obtain ⟨-, -, -, -, -, -, -, -, e0, e1, -⟩ := idx_facts t
  unfold iblk
  rw [View.read_apply]
  show (V m c main_v14 : S128x128.Idx → EReal) _ = _
  refine congrArg (V m c main_v14 : S128x128.Idx → EReal) ?_
  funext a; apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Every point's block of the second one-row bias is the whole of it. -/
theorem blk5_apply (c : Dev nD) (t : Fin cfg0.N) (q : Fin 128) :
    (iblk m c 5 t : Vec Ideal S1x128 .f32) (ix2 (0 : Fin 1) q) = (V m c main_v16 : S1x128.Idx → EReal) (ix2 (0 : Fin 1) q) := by
  obtain ⟨-, -, -, -, -, -, -, -, -, -, e0, e1, -⟩ := idx_facts t
  unfold iblk
  rw [View.read_apply]
  show (V m c main_v16 : S1x128.Idx → EReal) _ = _
  refine congrArg (V m c main_v16 : S1x128.Idx → EReal) ?_
  funext a; apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

/-- The output block's element `(p, q)` sits at row `5000 t + p`, column `q` of the result array. -/
theorem emb6 (t : Fin cfg0.N) (p : Fin 5000) (q : Fin 128) :
    ((cfg0.win 6).blk t).view.emb (ix2 p q) = (ix2 (row t p) q : S50000x128.Idx) := by
  obtain ⟨-, -, -, -, -, -, -, -, -, -, -, -, e0, e1⟩ := idx_facts t
  funext a; apply Fin.ext
  match a with
  | ⟨0, _⟩ => show win0_6.index t (0 : Fin 2) * 5000 + 1 * p.val = t.val * 5000 + p.val; rw [e0]; omega
  | ⟨1, _⟩ => show win0_6.index t (1 : Fin 2) * 128 + 1 * q.val = q.val; rw [e1]; omega

/-- The result array as one function of the argument arrays: `G` of the node features, the neighbourhood sum of the
    arguments, the weights and the biases. -/
def Gfull (c : Dev nD) : S50000x128.Idx → EReal :=
  G (m ((c : Thread nD τ).loc main_arg0))
    (neighbourhood (F := Ideal) (m ((c : Thread nD τ).loc main_arg0)) (m ((c : Thread nD τ).loc main_arg1))
      (m ((c : Thread nD τ).loc main_arg2)) (m ((c : Thread nD τ).loc main_arg3)))
    (m ((c : Thread nD τ).loc main_arg4)) (m ((c : Thread nD τ).loc main_arg5))
    (m ((c : Thread nD τ).loc main_arg6)) (m ((c : Thread nD τ).loc main_arg7))

/-- WHAT POINT `t` WRITES BACK is block `t` of `Gfull`. -/
theorem flushed_eq (c : Dev nD) (t : Fin cfg0.N) :
    (dats m 0 c).flushed 6 t = ((cfg0.win 6).blk t).view.read (Elt Ideal) (Gfull m c) := by
  rw [Value.flushed6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 4 t) (iblk m c 3 t) (iblk m c 5 t) (ix2 p q)
    = Gfull m c (((cfg0.win 6).blk t).view.emb (ix2 p q))
  rw [emb6]
  unfold Gfull
  refine pay_eq_G _ _ _ _ _ _ (iblk m c 0 t) (iblk m c 1 t) (iblk m c 2 t) (iblk m c 4 t) (iblk m c 3 t) (iblk m c 5 t) p q (row t p)
    (fun k => ?_) (fun k => ?_) (fun k => ?_) (fun k => ?_) ?_ ?_
  · rw [blk0_apply, V_main_arg0]
  · rw [blk1_apply, V_side]
  · rw [blk2_apply, V_wsum]; exact transpose_ix2_apply _ _ k q
  · rw [blk4_apply, V_wprod]; exact transpose_ix2_apply _ _ k q
  · rw [blk3_apply, V_bsum]; exact shapeCast_a_1a_apply _ _ 0 q
  · rw [blk5_apply, V_bprod]; exact shapeCast_a_1a_apply _ _ 0 q

/-- An index of the result array is in point `t`'s block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v17).slice (win0_6.rect t)).set ↔ _
  rw [View.set_slice_whole, Rect.mem_set_unit]
  exact Iff.rfl

/-- Row `r` lies in the block of point `r / 5000`: the ten blocks cover the array. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, -, -, e0, e1⟩ := idx_facts ⟨(i 0).val / 5000, ht⟩
  refine ⟨⟨(i 0).val / 5000, ht⟩, flush0_6 _, ?_⟩
  rw [mem_blk6]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

/-- So the result array ends holding `Gfull`. -/
theorem final (c : Dev nD) : (dats m 0 c).arrAt 6 cfg0.N = Gfull m c :=
  (dats m 0 c).arrAt_eq_of_cover 6 (Gfull m c) (fun t _ => flushed_eq m c t) cover6

/-- The kernel's run, read: the result array at `Gfull`, the arguments unchanged. -/
theorem run : θ_run defs (onTc (τ := τ) (main (F := Ideal))) ⟨m, fun _ => 0, ρ⟩ fun r => ∀ c : Dev nD,
      r.2.mem ((c : Thread nD τ).loc main_v17) = Gfull m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Hand

end
-- ==== Proof.RefRun.lean ====
/-
  The reference program read back: its forty-five host operations in order — the two calls of the leaky rectifier
  and, inside each, the call of the select, written out at their call sites over the calls' own buffers —, and its
  run: every weakly fair execution terminates, and every final state has each buffer at the fold of those operations
  over the launch contents.
-/
import proofs.«101453_j9466107920588_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's operations at its call site. -/
abbrev ops : List (HloOp τ sig (Elt F)) :=
  [ unary main_arg3 main_v0 (broadcastInDim S600000x1 ![0] bcast_S600000_S600000x1_0 : (⟨S600000, .f32⟩ : BufTy).Contents (Elt F) → (⟨S600000x1, .f32⟩ : BufTy).Contents (Elt F)),
    nullary main_c (constantI S_ 32 0#32),
    unary main_c main_v1 (broadcastInDim S600000 ![] bcast_S_S600000 : (⟨S_, .i32⟩ : BufTy).Contents (Elt F) → (⟨S600000, .i32⟩ : BufTy).Contents (Elt F)),
    binary main_arg2 main_v1 main_v2 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v3 (broadcastInDim S600000 ![] bcast_S_S600000 : (⟨S_, .i32⟩ : BufTy).Contents (Elt F) → (⟨S600000, .i32⟩ : BufTy).Contents (Elt F)),
    binary main_arg2 main_v3 main_v4 (addi : (⟨S600000, .i32⟩ : BufTy).Contents (Elt F) → (⟨S600000, .i32⟩ : BufTy).Contents (Elt F) → (⟨S600000, .i32⟩ : BufTy).Contents (Elt F)),
    ternary main_v2 main_v4 main_arg2 main_v5 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v5 main_v6 (broadcastInDim S600000x1 ![0] bcast_S600000_S600000x1_0 : (⟨S600000, .i32⟩ : BufTy).Contents (Elt F) → (⟨S600000x1, .i32⟩ : BufTy).Contents (Elt F)),
    binary main_arg0 main_v6 main_v7 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v0 main_v8 (broadcastInDim S600000x128 ![0, 1] bcast_S600000x1_S600000x128_0_1 : (⟨S600000x1, .f32⟩ : BufTy).Contents (Elt F) → (⟨S600000x128, .f32⟩ : BufTy).Contents (Elt F)),
    binary main_v8 main_v7 main_v9 (mulf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    unary main_cst main_v10 (broadcastInDim S50000x128 ![] bcast_S_S50000x128 : (⟨S_, .f32⟩ : BufTy).Contents (Elt F) → (⟨S50000x128, .f32⟩ : BufTy).Contents (Elt F)),
    unary main_arg1 main_v11 (broadcastInDim S600000x1 ![0] bcast_S600000_S600000x1_0 : (⟨S600000, .i32⟩ : BufTy).Contents (Elt F) → (⟨S600000x1, .i32⟩ : BufTy).Contents (Elt F)),
    ternary main_v10 main_v11 main_v9 main_v12 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v12 main_v13 (addf : (⟨S50000x128, .f32⟩ : BufTy).Contents (Elt F) → (⟨S50000x128, .f32⟩ : BufTy).Contents (Elt F) → (⟨S50000x128, .f32⟩ : BufTy).Contents (Elt F)),
    unary main_arg4 main_v14 ((transpose S128x128 [1, 0] · transposes_S128x128_S128x128_1_0) : (⟨S128x128, .f32⟩ : BufTy).Contents (Elt F) → (⟨S128x128, .f32⟩ : BufTy).Contents (Elt F)),
    binary main_v13 main_v14 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v16 (broadcastInDim S1x128 ![1] bcast_S128_S1x128_1 : (⟨S128, .f32⟩ : BufTy).Contents (Elt F) → (⟨S1x128, .f32⟩ : BufTy).Contents (Elt F)),
    unary main_v16 main_v17 (broadcastInDim S50000x128 ![0, 1] bcast_S1x128_S50000x128_0_1 : (⟨S1x128, .f32⟩ : BufTy).Contents (Elt F) → (⟨S50000x128, .f32⟩ : BufTy).Contents (Elt F)),
    binary main_v15 main_v17 main_v18 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x128 ![] bcast_S_S50000x128),
    TRef.binary (.of main_v18) main_call0.v0 main_call0.v1 (cmpf .oge),
    TRef.unary (.of main_cst_1) main_call0.v2 id,
    TRef.unary main_call0.v2 main_call0.v3 (broadcastInDim S50000x128 ![] bcast_S_S50000x128),
    TRef.binary main_call0.v3 (.of main_v18) main_call0.v4 mulf,
    TRef.ternary main_call0.v1 (.of main_v18) main_call0.v4 main_call0.call0.v0 select,
    binary main_arg0 main_v12 main_v20 (mulf : (⟨S50000x128, .f32⟩ : BufTy).Contents (Elt F) → (⟨S50000x128, .f32⟩ : BufTy).Contents (Elt F) → (⟨S50000x128, .f32⟩ : BufTy).Contents (Elt F)),
    unary main_arg6 main_v21 ((transpose S128x128 [1, 0] · transposes_S128x128_S128x128_1_0) : (⟨S128x128, .f32⟩ : BufTy).Contents (Elt F) → (⟨S128x128, .f32⟩ : BufTy).Contents (Elt F)),
    binary main_v20 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3C23D70A#32),
    TRef.nullary main_call1.cst (constant S_ .f32 0x00000000#32),
    TRef.unary main_call1.cst main_call1.v0 (broadcastInDim S50000x128 ![] bcast_S_S50000x128),
    TRef.binary (.of main_v25) main_call1.v0 main_call1.v1 (cmpf .oge),
    TRef.unary (.of main_cst_2) main_call1.v2 id,
    TRef.unary main_call1.v2 main_call1.v3 (broadcastInDim S50000x128 ![] bcast_S_S50000x128),
    TRef.binary main_call1.v3 (.of main_v25) main_call1.v4 mulf,
    TRef.ternary main_call1.v1 (.of main_v25) main_call1.v4 main_call1.call0.v0 select,
    binary main_v19 main_v26 main_v27 (addf : (⟨S50000x128, .f32⟩ : BufTy).Contents (Elt F) → (⟨S50000x128, .f32⟩ : BufTy).Contents (Elt F) → (⟨S50000x128, .f32⟩ : BufTy).Contents (Elt F)) ]

set_option maxRecDepth 4096 in
/-- @main is that straight line: the two functions' bodies unfolded at their calls, sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub ..⟩

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefValue.lean ====
/-
  What the reference computes, named. `neighbourhood` is the sparse aggregation: the source rows gathered by the column
  indices (a negative index wrapped by the number of nodes), scaled by the edge values and summed into the destination
  rows. `rectify` is the leaky rectifier as this program spells it (`x ≥ 0` selects `x`, otherwise `slope · x`).
  `affine` is a product with a transposed weight plus a bias copied down the rows. `result` is the sum of the two
  rectified affine maps of `e + s` and `e · s`, `s` the neighbourhood. The run of the program ends with its result
  buffer at `result` of the argument arrays, and the arguments unchanged.
-/
import proofs.«101453_j9466107920588_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The sparse aggregation `s[n, :] = ∑ over edges (n ← col) of val · e[col, :]`, as the host operations spell it. -/
def neighbourhood (e : FVec F S50000x128 .f32) (row col : IVec S600000 32) (val : FVec F S600000 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 row)
    (mulf (broadcastInDim S600000x128 ![0, 1] bcast_S600000x1_S600000x128_0_1 (broadcastInDim S600000x1 ![0] bcast_S600000_S600000x1_0 val))
      (Host.gather gather_S50000x128_S600000x1_S600000x128_1_0_n_n_0_1_1128 e
        (broadcastInDim S600000x1 ![0] bcast_S600000_S600000x1_0
          (select (cmpi .slt col (broadcastInDim S600000 ![] bcast_S_S600000 (constantI S_ 32 0#32)))
            (addi col (broadcastInDim S600000 ![] bcast_S_S600000 (constantI S_ 32 50000#32))) col))))

/-- The leaky rectifier, this program's spelling. -/
def rectify (x : FVec F S50000x128 .f32) : FVec F S50000x128 .f32 :=
  select (cmpf .oge x (broadcastInDim S50000x128 ![] bcast_S_S50000x128 (constant S_ .f32 0x00000000#32))) x
    (mulf (broadcastInDim S50000x128 ![] bcast_S_S50000x128 (id (constant S_ .f32 0x3C23D70A#32))) x)

/-- `x · Wᵀ + b`, the bias copied down the rows. -/
def affine (x : FVec F S50000x128 .f32) (W : FVec F S128x128 .f32) (b : FVec F S128 .f32) : FVec F S50000x128 .f32 :=
  addf (Host.dotGeneral dot_S50000x128_S128x128_S50000x128_1_0_0_1_n_n none x (transpose S128x128 [1, 0] W transposes_S128x128_S128x128_1_0))
    (broadcastInDim S50000x128 ![0, 1] bcast_S1x128_S50000x128_0_1 (broadcastInDim S1x128 ![1] bcast_S128_S1x128_1 b))

/-- The reference's result as a term of its arguments. -/
def result (e : FVec F S50000x128 .f32) (row col : IVec S600000 32) (val : FVec F S600000 .f32)
    (Wsum : FVec F S128x128 .f32) (bsum : FVec F S128 .f32) (Wprod : FVec F S128x128 .f32) (bprod : FVec F S128 .f32) : FVec F S50000x128 .f32 :=
  addf (rectify (affine (addf e (neighbourhood e row col val)) Wsum bsum))
    (rectify (affine (mulf e (neighbourhood e row col val)) Wprod bprod))

set_option maxRecDepth 8192 in
set_option maxHeartbeats 1000000 in
/-- The fold of the operations at the result buffer is `result` of the arguments' contents. -/
theorem out_eq (V : Valuation τ sig (Elt F)) :
    after ops V (main_v27 : DevRef τ sig)
      = result (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  after_results_simp
  rfl

set_option maxRecDepth 8192 in
/-- No operation writes argument 0. -/
theorem arg0_eq (V : Valuation τ sig (Elt F)) : after ops V (main_arg0 : DevRef τ sig) = V (main_arg0 : DevRef τ sig) := by
  after_results_simp
set_option maxRecDepth 8192 in
/-- No operation writes argument 1. -/
theorem arg1_eq (V : Valuation τ sig (Elt F)) : after ops V (main_arg1 : DevRef τ sig) = V (main_arg1 : DevRef τ sig) := by
  after_results_simp
set_option maxRecDepth 8192 in
/-- No operation writes argument 2. -/
theorem arg2_eq (V : Valuation τ sig (Elt F)) : after ops V (main_arg2 : DevRef τ sig) = V (main_arg2 : DevRef τ sig) := by
  after_results_simp
set_option maxRecDepth 8192 in
/-- No operation writes argument 3. -/
theorem arg3_eq (V : Valuation τ sig (Elt F)) : after ops V (main_arg3 : DevRef τ sig) = V (main_arg3 : DevRef τ sig) := by
  after_results_simp
set_option maxRecDepth 8192 in
/-- No operation writes argument 4. -/
theorem arg4_eq (V : Valuation τ sig (Elt F)) : after ops V (main_arg4 : DevRef τ sig) = V (main_arg4 : DevRef τ sig) := by
  after_results_simp
set_option maxRecDepth 8192 in
/-- No operation writes argument 5. -/
theorem arg5_eq (V : Valuation τ sig (Elt F)) : after ops V (main_arg5 : DevRef τ sig) = V (main_arg5 : DevRef τ sig) := by
  after_results_simp
set_option maxRecDepth 8192 in
/-- No operation writes argument 6. -/
theorem arg6_eq (V : Valuation τ sig (Elt F)) : after ops V (main_arg6 : DevRef τ sig) = V (main_arg6 : DevRef τ sig) := by
  after_results_simp
set_option maxRecDepth 8192 in
/-- No operation writes argument 7. -/
theorem arg7_eq (V : Valuation τ sig (Elt F)) : after ops V (main_arg7 : DevRef τ sig) = V (main_arg7 : DevRef τ sig) := by
  after_results_simp

/-- Every weakly fair execution of the reference terminates with the result buffer at `result` of the argument arrays
    and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v27).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.RefValue

end
-- ==== Proof.RefIdx.lean ====
/-
  The reference's result, read at the extended reals index by index, is the aggregator's function `G` of the node
  features, the neighbourhood sum, the weights and the biases: the host's matrix product is the sum over the 128
  contracted positions, the transposed weight read at `(c, j)` is the weight at `(j, c)`, the bias copied to one row and
  then down the rows is the bias at the column, and this program's spelling of the leaky rectifier is the other one
  (`leaky_ge`). The neighbourhood sum is carried as one value and never opened.
-/
import proofs.«101453_j9466107920588_1_alg».proof.Proof.RefValue
import proofs.«101453_j9466107920588_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.BiInteraction

/-- The reference's matrix product: all 50000 rows against a 128 × 128 weight, contracting columns with rows. -/
abbrev DR : DotDims S50000x128 S128x128 S50000x128 := dot_S50000x128_S128x128_S50000x128_1_0_0_1_n_n

theorem dR_l0 (j : S50000x128.Idx) (k : DR.contr.Idx) : (DR.lhsIdx j k 0 : ℕ) = j 0 := by
  simp [DotDims.lhsIdx, DR, dot_S50000x128_S128x128_S50000x128_1_0_0_1_n_n]; rfl
theorem dR_l1 (j : S50000x128.Idx) (k : DR.contr.Idx) : (DR.lhsIdx j k 1 : ℕ) = k ⟨0, by decide⟩ := by
  simp [DotDims.lhsIdx, DR, dot_S50000x128_S128x128_S50000x128_1_0_0_1_n_n]; rfl
theorem dR_r0 (j : S50000x128.Idx) (k : DR.contr.Idx) : (DR.rhsIdx j k 0 : ℕ) = k ⟨0, by decide⟩ := by
  simp [DotDims.rhsIdx, DR, dot_S50000x128_S128x128_S50000x128_1_0_0_1_n_n]; rfl
theorem dR_r1 (j : S50000x128.Idx) (k : DR.contr.Idx) : (DR.rhsIdx j k 1 : ℕ) = j 1 := by
  simp [DotDims.rhsIdx, DR, dot_S50000x128_S128x128_S50000x128_1_0_0_1_n_n]; rfl

/-- The host's product at row `n` and column `j`: the sum over the 128 contracted positions. -/
theorem dot_at (l : FVec Ideal S50000x128 .f32) (r : FVec Ideal S128x128 .f32) (n : Fin 50000) (j : Fin 128) :
    Host.dotGeneral (F := Ideal) DR none l r (ix2 n j) = ∑ c : Fin 128, l (ix2 n c) * r (ix2 c j) := by
  simp only [Host.dotGeneral]
  exact (Ideal.dotGeneral_apply DR none _ l r (ix2 n j)).trans (sum_contr DR rfl rfl dR_l0 dR_l1 dR_r0 dR_r1 l r n j)

/-- The bias copied to a one-row matrix and then down the 50000 rows reads, at `(n, j)`, the bias at `j`. -/
theorem bias_at (b : FVec Ideal S128 .f32) (n : Fin 50000) (j : Fin 128) :
    broadcastInDim S50000x128 ![0, 1] bcast_S1x128_S50000x128_0_1 (broadcastInDim S1x128 ![1] bcast_S128_S1x128_1 b) (ix2 n j) = b (ix1 j) := by
  rw [broadcastInDim_apply _ _ _ (ix2 n j) (ix2 (0 : Fin 1) j) (fun a => by match a with | ⟨0, _⟩ => rfl | ⟨1, _⟩ => rfl)]
  exact broadcastInDim_apply _ _ _ (ix2 (0 : Fin 1) j) (ix1 j) (fun a => by match a with | ⟨0, _⟩ => rfl)

/-- This program's leaky rectifier at an element is `leaky`. -/
theorem rectify_at (x : FVec Ideal S50000x128 .f32) (i : S50000x128.Idx) : rectify x i = leaky slope (x i) := by
  unfold rectify
  show Scalar.select (Ideal.cmp .oge (x i) (Ideal.ofBits .f32 0x00000000#32)) (x i) (Ideal.ofBits .f32 0x3C23D70A#32 * x i) = _
  rw [Ideal.ofBits_zero_f32]
  exact leaky_ge _ _

/-- The reference's result is `G` of the arguments and the neighbourhood sum. -/
theorem result_eq (e : FVec Ideal S50000x128 .f32) (row col : IVec S600000 32) (val : FVec Ideal S600000 .f32)
    (Wsum : FVec Ideal S128x128 .f32) (bsum : FVec Ideal S128 .f32) (Wprod : FVec Ideal S128x128 .f32) (bprod : FVec Ideal S128 .f32) :
    result (F := Ideal) e row col val Wsum bsum Wprod bprod
      = G e (neighbourhood (F := Ideal) e row col val) Wsum bsum Wprod bprod := by
  unfold result
  generalize neighbourhood (F := Ideal) e row col val = s
  funext i
  obtain ⟨n, j, rfl⟩ : ∃ (n : Fin 50000) (j : Fin 128), i = ix2 n j := ⟨i 0, i 1, eq_ix2 i⟩
  rw [G_apply, addf_apply, rectify_at, rectify_at]
  unfold affine
  rw [addf_apply, addf_apply, dot_at, dot_at, bias_at, bias_at]
  have hT : ∀ (W : FVec Ideal S128x128 .f32) (c j : Fin 128),
      transpose S128x128 [1, 0] W transposes_S128x128_S128x128_1_0 (ix2 c j) = W (ix2 j c) :=
    fun W c j => transpose_ix2_apply W _ c j
  simp only [hT, addf_apply, mulf_apply]
  rfl

end Cert.ReferenceIdeal.RefValue

end
-- ==== Proof.lean ====
/-
  The certificate's claims for the bi-interaction aggregator (`Cert.Claim`).

  Both idealized programs compute, on the host, the same sparse neighbourhood sum `s` of the node features `e`; then
  the kernel, block of 5000 rows by block, and the reference, on the whole arrays, compute

      leaky ((e + s) · Wsumᵀ + bsum) + leaky ((e · s) · Wprodᵀ + bprod)

  over the extended reals, where a change of float format is the identity and a matrix product is the exact sum over the
  128 contracted positions. The two spellings of the leaky rectifier (`x > 0` with `x · slope` against `x ≥ 0` with
  `slope · x`) agree everywhere, at `0` and at the infinities included, so the equality needs no finiteness and the
  precondition is never opened. The neighbourhood sum is the same term of the arguments in both programs and is carried
  as one value.

  The frames of the two kernel programs are the generated ones; the reference's frame is its run with the result
  dropped. The idealization rewrote no operation, so `preserves` is `True`.
-/
import proofs.«101453_j9466107920588_1_alg».proof.Defs
import proofs.«101453_j9466107920588_1_alg».proof.Proof.Gen.Kernel
import proofs.«101453_j9466107920588_1_alg».proof.Proof.Gen.Kernel.Skeleton
import proofs.«101453_j9466107920588_1_alg».proof.Proof.Gen.Kernel.Launch
import proofs.«101453_j9466107920588_1_alg».proof.Proof.Gen.Kernel.Points
import proofs.«101453_j9466107920588_1_alg».proof.Proof.Gen.Kernel.Frame
import proofs.«101453_j9466107920588_1_alg».proof.Proof.Gen.KernelIdeal
import proofs.«101453_j9466107920588_1_alg».proof.Proof.Gen.KernelIdeal.Skeleton
import proofs.«101453_j9466107920588_1_alg».proof.Proof.Gen.KernelIdeal.Launch
import proofs.«101453_j9466107920588_1_alg».proof.Proof.Gen.KernelIdeal.Points
import proofs.«101453_j9466107920588_1_alg».proof.Proof.Gen.KernelIdeal.Frame
import proofs.«101453_j9466107920588_1_alg».proof.Proof.Gen.KernelIdeal.Value
import proofs.«101453_j9466107920588_1_alg».proof.Proof.Gen.ReferenceIdeal
import proofs.«101453_j9466107920588_1_alg».proof.Proof.Gen.Pre_finite_inputs
import proofs.«101453_j9466107920588_1_alg».proof.Proof.KernelValue
import proofs.«101453_j9466107920588_1_alg».proof.Proof.RefIdx
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- The neighbourhood sum is one term of the arguments in both programs: the same host operations with the same
    dimension numbers. -/
theorem neighbourhood_eq (e : FVec Ideal Cert.KernelIdeal.S50000x128 .f32) (row col : IVec Cert.KernelIdeal.S600000 32)
    (val : FVec Ideal Cert.KernelIdeal.S600000 .f32) :
    Cert.ReferenceIdeal.RefValue.neighbourhood (F := Ideal) e row col val
      = Cert.KernelIdeal.Hand.neighbourhood (F := Ideal) e row col val := rfl

/-- At the extended reals the kernel's result array ends at `G` of the arguments and their neighbourhood sum, and the
    reference's at its composed term of arguments that agree, which is the same `G`. -/
theorem algebraic : Cert.algebraic_KernelIdeal_ReferenceIdeal := by
  intro m ρ m' ρ' _ hagree
  refine ⟨fun c => Cert.KernelIdeal.Hand.Gfull m c, Cert.KernelIdeal.Hand.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6, a7⟩ := hagree c
  rw [a0, a1, a2, a3, a4, a5, a6, a7, Cert.ReferenceIdeal.RefValue.result_eq, neighbourhood_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
